-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩
abbrev S16384x1 : Shape := ⟨2, ![16384, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x2048 : S_.BroadcastsInDim S16384x2048 (![] : Fin 0 → Fin S16384x2048.rank)
  bcast_S16384x1_S16384x2048_0_1 : S16384x1.BroadcastsInDim S16384x2048 (![0, 1] : Fin 2 → Fin S16384x2048.rank)

variable [Facts₀]

class Facts : Prop extends Facts₀ where

variable [Facts]
-- ==== Proof.Reflection.lean ====
/-
  The Householder reflection of each row, as ONE function of the two argument arrays.

  For arrays `v z : [16384, 2048]` of extended reals, row `r` of the result is
      z_r − v_r · (2 · (⟨v_r, z_r⟩ / ⟨v_r, v_r⟩)),
  where `⟨x_r, y_r⟩ = ∑ k < 2048, x[r,k] · y[r,k]` is the inner product of two rows, `/` is the ideal division
  (total on the extended reals: a zero row of `v` gives the quotient its conventional value, the SAME on both
  programs, so nothing is asked of `v`), and `2` is the f32 word `0x40000000` read at the ideal instance — both
  programs carry that same word, so it is never evaluated.

  The two programs differ only in where the factor `2` sits: one scales the quotient, `v · (2 · q)`, the other
  scales the row, `(2 · v) · q`. On the extended reals multiplication is commutative and associative at every
  value, the infinities included, so the two agree with no finiteness asked of the inputs (`scale_row`).
-/
import Idealize.ShloMosaic.PureOps.Ideal
import Idealize.ShloMosaic.Lib.ValueIdx

noncomputable section

open scoped BigOperators

namespace Cert.Reflection

open Idealize.ShloMosaic Idealize.ShloMosaic.ValueIdx

/-- An array `[16384, 2048]` of extended reals. -/
abbrev Arr : Type := (⟨2, ![16384, 2048]⟩ : Shape).Idx → EReal

/-- The inner product of row `r` of `x` with row `r` of `y`: the sum over the 2048 lanes of the products. -/
def rowDot (x y : Arr) (r : Fin 16384) : EReal := ∑ k : Fin 2048, x (ix2 r k) * y (ix2 r k)

/-- The factor `2`: the f32 word both programs write, read at the ideal instance. -/
def two : EReal := Ideal.ofBits .f32 0x40000000#32

/-- The coefficient of row `r`: twice the quotient of `⟨v_r, z_r⟩` by `⟨v_r, v_r⟩`. -/
def coeff (v z : Arr) (r : Fin 16384) : EReal := two * Ideal.div (rowDot v z r) (rowDot v v r)

/-- The reflected array: at `(r, c)`, `z[r,c] − v[r,c] · coeff r`. -/
def reflect (v z : Arr) : Arr := fun i => z i - v i * coeff v z (i 0)

/-- The reflection at an index reads only that index's own entries and its row: if `v` and `z` are `a` and `b` at `i`,
    and along the row of `i` they are `f` and `g` lane by lane, the reflected entry is `b − a · (2 · (⟨f, g⟩ / ⟨f, f⟩))`. -/
theorem reflect_apply_of_row (v z : Arr) (i : (⟨2, ![16384, 2048]⟩ : Shape).Idx) (a b : EReal) (f g : Fin 2048 → EReal)
    (hv : v i = a) (hz : z i = b) (hf : ∀ k, v (ix2 (n0 := 16384) (n1 := 2048) (i 0) k) = f k)
    (hg : ∀ k, z (ix2 (n0 := 16384) (n1 := 2048) (i 0) k) = g k) :
    reflect v z i = b - a * (two * Ideal.div (∑ k : Fin 2048, f k * g k) (∑ k : Fin 2048, f k * f k)) := by
  unfold reflect coeff rowDot
  rw [hv, hz]
  simp only [hf, hg]

/-- Scaling the quotient or scaling the row: `(c · a) · q = a · (c · q)` on the extended reals, by commutativity and
    associativity of the product alone (so it holds at the infinities too). -/
theorem scale_row (a c q : EReal) : c * a * q = a * (c * q) :=
  (mul_assoc c a q).trans (mul_left_comm c a q)

end Cert.Reflection

end
-- ==== Proof.ReferenceReflects.lean ====
/-
  The reference computes the reflection.

  Its result stage, read at an index `i = (r, c)`, is
      z[r,c] − (2 · v[r,c]) · ((0 + ∑ k, v[r,k] · z[r,k]) / (0 + ∑ k, v[r,k] · v[r,k])):
  the two row sums start from the zero word, which is the extended real `0`, and the quotient — a column
  `[16384, 1]` — is read back along the row by the broadcast, at row `r` whatever the lane `c`. The sums are then
  the rows' inner products, and moving the factor `2` from the row onto the quotient (`scale_row`) gives `reflect`.
-/
import proofs.«136204_j44659069944366_2_alg».proof.Proof.Gen.ReferenceIdeal.Read
import proofs.«136204_j44659069944366_2_alg».proof.Proof.Reflection
import Idealize.ShloMosaic.PureOps.Ideal.Laws

noncomputable section

open scoped BigOperators

namespace Cert.ReferenceIdeal.Reflects

open Cert.ReferenceIdeal Cert.ReferenceIdeal.Gen Cert.ReferenceIdeal.Read
open Idealize.ShloMosaic Idealize.ShloMosaic.ValueIdx Cert.Reflection

/-- Lane `k` of the row that the numerator's sum runs over, for the result index `i`: the entry `(i 0, k)`. -/
theorem numerator_lane (i : S16384x2048.Idx) (k : Fin 2048) :
    idx_main_v1 (idx_main_v2 (idx_main_v9 i)) k = ix2 (n0 := 16384) (n1 := 2048) (i 0) k :=
  funext fun a => Fin.ext (by match a with | ⟨0, _⟩ => rfl | ⟨1, _⟩ => rfl)

/-- The same for the denominator's sum. -/
theorem denominator_lane (i : S16384x2048.Idx) (k : Fin 2048) :
    idx_main_v4 (idx_main_v5 (idx_main_v9 i)) k = ix2 (n0 := 16384) (n1 := 2048) (i 0) k :=
  funext fun a => Fin.ext (by match a with | ⟨0, _⟩ => rfl | ⟨1, _⟩ => rfl)

/-- The reference's result stage is the reflection of the rows of `z` along the rows of `v`. -/
theorem stage_eq (v z : Arr) : val_main_v11 (F := Ideal) v z = reflect v z := by
  funext i
  rw [val_main_v11_apply, val_main_v10_apply, val_main_v7_apply, val_main_v6_apply, val_main_cst_1_apply,
    val_main_v9_apply, val_main_v8_apply, val_main_v2_apply, val_main_v5_apply, val_main_v1_apply, val_main_v4_apply,
    val_main_cst_apply, val_main_cst_0_apply]
  simp only [val_main_v0_apply, val_main_v3_apply, numerator_lane, denominator_lane, Ideal.ofBits_def, Ideal.subf_def,
    Ideal.mulf_def, Ideal.hostDivf_def, Ideal.ofBits_zero_f32, zero_add]
  rw [scale_row]
  rfl

end Cert.ReferenceIdeal.Reflects

end
-- ==== Proof.BlockValue.lean ====
/-
  What one grid point leaves in its output block, at the ideal instance.

  A point loads a block `x0` of `v` and a block `x1` of `z`, both `[512, 2048]`: 512 whole rows. For each row `p` of
  the block it sums `x0[p,k] · x1[p,k]` and `x0[p,k] · x0[p,k]` over the 2048 lanes `k`, divides the first sum by the
  second, doubles the quotient, and stores `x1[p,q] − x0[p,q] · (2 · quotient)` at `(p, q)`. The lane sum carries no
  starting value at the ideal instance (its accumulator is the neutral word), so the block is the reflection of
  its own rows: the entry at `(p, q)` depends on row `p` of the two loaded blocks and on nothing else.
-/
import proofs.«136204_j44659069944366_2_alg».proof.Proof.Gen.KernelIdeal.Value
import proofs.«136204_j44659069944366_2_alg».proof.Proof.Reflection
import Idealize.ShloMosaic.PureOps.Ideal.Laws
import Idealize.ShloMosaic.Lib.ValueIdx

noncomputable section

open scoped BigOperators

namespace Cert.KernelIdeal.Block

open Cert.KernelIdeal Cert.KernelIdeal.Gen
open Idealize.ShloMosaic Idealize.ShloMosaic.ValueIdx Cert.Reflection

/-- The body's one load rectangle and one store rectangle start at the block's origin. -/
theorem origin_zero : (![0, 0] : Fin 2 → Nat) = fun _ => 0 := funext fun a => by fin_cases a <;> rfl

/-- The body's sum over the lanes of a `[512, 2048]` value, read at row `p`: the sum over the 2048 lanes `k` of the
    value at `(p, k)`. -/
theorem laneSum_apply (src : FVec Ideal S512x2048 .f32) (p : Fin 512) :
    multiReduction .add [1] S512 src 0x00000000#32 reduces_S512x2048_S512 (.inl rfl) rfl (ix1 p)
      = ∑ k : Fin 2048, src (ix2 p k) :=
  (Ideal.multiReduction_add_single src 0x00000000#32 reduces_S512x2048_S512 (.inl rfl) rfl (ix1 p)).trans
    (Finset.sum_congr rfl fun k _ =>
      congrArg src (funext fun a => Fin.ext (by match a with | ⟨0, _⟩ => rfl | ⟨1, _⟩ => rfl)))

/-- The output block a point leaves, at `(p, q)`, from its two input blocks: the reflection of row `p` of `x1` along
    row `p` of `x0`. -/
theorem block_apply (x0 x1 : Vec Ideal S512x2048 .f32) (p : Fin 512) (q : Fin 2048) :
    out0_2 x0 x1 (ix2 p q)
      = x1 (ix2 p q) - x0 (ix2 p q) * (two * Ideal.div (∑ k : Fin 2048, x0 (ix2 p k) * x1 (ix2 p k))
          (∑ k : Fin 2048, x0 (ix2 p k) * x0 (ix2 p k))) := by
  unfold out0_2
  simp only [View.ld_unit_zero (S := S512x2048) origin_zero]
  refine (Value.canon2_eq x1 x0 (ix2 p q)).trans ?_
  have e0 : Value.ix2_0 (ix2 p q) = ix2 p q :=
    funext fun a => Fin.ext (by match a with | ⟨0, _⟩ => rfl | ⟨1, _⟩ => rfl)
  have e1 : Value.ix2_1 (ix2 p q) = ix2 p q :=
    funext fun a => Fin.ext (by match a with | ⟨0, _⟩ => rfl | ⟨1, _⟩ => rfl)
  have e2 : Value.ix2_2 (ix2 p q) = ix1 p := funext fun a => Fin.ext (by match a with | ⟨0, _⟩ => rfl)
  have e3 : Value.ix2_3 (ix2 p q) = ix1 p := funext fun a => Fin.ext (by match a with | ⟨0, _⟩ => rfl)
  dsimp only [Value.E2]
  rw [e0, e1, e2, e3, laneSum_apply, laneSum_apply]
  rfl

end Cert.KernelIdeal.Block

end
-- ==== Proof.KernelReflects.lean ====
/-
  The kernel computes the reflection: from the blocks the grid points write back to the whole result array.

  The grid has 32 points. Point `t` stages block `(t, 0)` of each of the three arrays: rows `512·t … 512·t + 511`,
  all 2048 lanes (the index maps, decided over the grid: `index_facts`). So the element `(p, q)` of any of the three
  blocks at point `t` sits at `(512·t + p, q)` of its array, and row `p` of an input block is the WHOLE row
  `512·t + p` of the array: the lane sums of the block are that row's inner products. Hence what point `t` writes
  back is block `t` of `reflect v z` (`flushed_eq`). Every row `r` lies in the block of the point `r / 512`, so the 32
  blocks cover the array (`cover`), and the array ends holding `reflect v z` (`final`, `run`).
-/
import proofs.«136204_j44659069944366_2_alg».proof.Proof.Gen.KernelIdeal.Value
import proofs.«136204_j44659069944366_2_alg».proof.Proof.BlockValue
import Idealize.ShloMosaic.Lib.Pipeline.Value

noncomputable section

open scoped BigOperators

namespace Cert.KernelIdeal.Reflects

open Cert.KernelIdeal Cert.KernelIdeal.Gen
open Idealize.ShloMosaic Idealize.ShloMosaic.TcCoe Idealize.SL.Sem Idealize.ShloMosaic.ValueIdx Cert.Reflection
open Idealize.ShloMosaic.Pipeline (Dat)

variable (m : (ℓ : Loc nD τ sig) → Buf (Elt Ideal) ℓ) (ρ : Dev nD → PrngReg)

/-- The three printed index maps, decided over the 32 grid points: point `t` stages block row `t` and the one
    block column, for both inputs and for the output. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the reflection of the argument arrays as the region finds them. -/
theorem flushed_eq (c : Dev nD) (t : Fin cfg0.N) :
    (dats m 0 c).flushed 2 t
      = ((cfg0.win 2).blk t).view.read (Elt Ideal) (reflect (V m c main_arg0) (V m c main_arg1)) := by
  rw [Value.flushed2]
  obtain ⟨a0, a1, b0, b1, o0, o1⟩ := index_facts t
  funext j
  obtain ⟨p, q, rfl⟩ : ∃ (p : Fin 512) (q : Fin 2048), j = ix2 p q := ⟨j 0, j 1, eq_ix2 j⟩
  show out0_2 (iblk m c 0 t) (iblk m c 1 t) (ix2 p q)
    = reflect (V m c main_arg0) (V m c main_arg1) (((cfg0.win 2).blk t).view.emb (ix2 p q))
  refine (Block.block_apply (iblk m c 0 t) (iblk m c 1 t) p q).trans
    (reflect_apply_of_row (V m c main_arg0) (V m c main_arg1) (((cfg0.win 2).blk t).view.emb (ix2 p q))
      (iblk m c 0 t (ix2 p q)) (iblk m c 1 t (ix2 p q)) (fun k => iblk m c 0 t (ix2 p k)) (fun k => iblk m c 1 t (ix2 p k))
      ?_ ?_ ?_ ?_).symm
  · -- the entry itself, in `v`: the output block's element and input block 0's element sit at the same place
    have h : ((cfg0.win 2).blk t).view.emb (ix2 p q) = ((cfg0.win 0).blk t).view.emb (ix2 p q) := by
      funext a; apply Fin.ext
      match a with
      | ⟨0, _⟩ =>
        show win0_2.index t (0 : Fin 2) * 512 + 1 * p.val = win0_0.index t (0 : Fin 2) * 512 + 1 * p.val
        omega
      | ⟨1, _⟩ =>
        show win0_2.index t (1 : Fin 2) * 2048 + 1 * q.val = win0_0.index t (1 : Fin 2) * 2048 + 1 * q.val
        omega
    exact congrArg (V m c main_arg0) h
  · -- the entry itself, in `z`
    have h : ((cfg0.win 2).blk t).view.emb (ix2 p q) = ((cfg0.win 1).blk t).view.emb (ix2 p q) := by
      funext a; apply Fin.ext
      match a with
      | ⟨0, _⟩ =>
        show win0_2.index t (0 : Fin 2) * 512 + 1 * p.val = win0_1.index t (0 : Fin 2) * 512 + 1 * p.val
        omega
      | ⟨1, _⟩ =>
        show win0_2.index t (1 : Fin 2) * 2048 + 1 * q.val = win0_1.index t (1 : Fin 2) * 2048 + 1 * q.val
        omega
    exact congrArg (V m c main_arg1) h
  · -- lane `k` of the entry's row, in `v`: row `p` of input block 0 is the whole row of the array
    intro k
    have h : ix2 (n0 := 16384) (n1 := 2048) (((cfg0.win 2).blk t).view.emb (ix2 p q) 0) k
        = ((cfg0.win 0).blk t).view.emb (ix2 p k) := by
      funext a; apply Fin.ext
      match a with
      | ⟨0, _⟩ =>
        show win0_2.index t (0 : Fin 2) * 512 + 1 * p.val = win0_0.index t (0 : Fin 2) * 512 + 1 * p.val
        omega
      | ⟨1, _⟩ =>
        show k.val = win0_0.index t (1 : Fin 2) * 2048 + 1 * k.val
        omega
    exact congrArg (V m c main_arg0) h
  · -- lane `k` of the entry's row, in `z`
    intro k
    have h : ix2 (n0 := 16384) (n1 := 2048) (((cfg0.win 2).blk t).view.emb (ix2 p q) 0) k
        = ((cfg0.win 1).blk t).view.emb (ix2 p k) := by
      funext a; apply Fin.ext
      match a with
      | ⟨0, _⟩ =>
        show win0_2.index t (0 : Fin 2) * 512 + 1 * p.val = win0_1.index t (0 : Fin 2) * 512 + 1 * p.val
        omega
      | ⟨1, _⟩ =>
        show k.val = win0_1.index t (1 : Fin 2) * 2048 + 1 * k.val
        omega
    exact congrArg (V m c main_arg1) h

/-- An index of the array is in point `t`'s output block iff each coordinate is in the block's range on its axis. -/
theorem mem_blk (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v0).slice (win0_2.rect t)).set ↔ _
  rw [View.set_slice_whole, Rect.mem_set_unit]
  exact Iff.rfl

/-- THE BLOCKS COVER THE ARRAY: row `r` is in the block of the point `r / 512`, at every lane. -/
theorem cover (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hN : cfg0.N = 32 := N_0
  obtain ⟨t, ht⟩ : ∃ t : Fin cfg0.N, t.val = (i 0).val / 512 := ⟨⟨(i 0).val / 512, by omega⟩, rfl⟩
  obtain ⟨-, -, -, -, o0, o1⟩ := index_facts t
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- THE ARRAY after the run is the reflection of the argument arrays. -/
theorem final (c : Dev nD) :
    (dats m 0 c).arrAt 2 cfg0.N
      = reflect (m ((c : Thread nD τ).loc main_arg0)) (m ((c : Thread nD τ).loc main_arg1)) :=
  (dats m 0 c).arrAt_eq_of_cover 2 (reflect (V m c main_arg0) (V m c main_arg1)) (fun t _ => flushed_eq m c t) cover

/-- The kernel's run at the ideal instance: every weakly fair execution terminates with the result array at the
    reflection of the argument arrays, the arguments unchanged. -/
theorem run : θ_run defs (onTc (τ := τ) (main (F := Ideal))) ⟨m, fun _ => 0, ρ⟩ fun r => ∀ c : Dev nD,
      r.2.mem ((c : Thread nD τ).loc main_v0)
        = reflect (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Reflects

end
-- ==== Proof.lean ====
/-
  A Householder reflection of rows, tiled over row blocks, against its whole-array form.

  Both programs take `v z : f32[16384, 2048]` and return, row by row, the reflection of `z_r` along `v_r`:
      z_r − 2 · v_r · (⟨v_r, z_r⟩ / ⟨v_r, v_r⟩),      ⟨x_r, y_r⟩ = ∑ k < 2048, x[r,k] · y[r,k].
  The kernel walks a grid of 32 points; point `t` holds rows `512·t … 512·t + 511` with all 2048 lanes resident, so
  each row's two inner products are complete inside one block, and it stores `z − v · (2 · q)` with `q` the row's
  quotient. The reference computes the two inner products of every row at once and returns `z − (2 · v) · q`.

  At the ideal instance a float is an extended real and every operation is exact, so:
  * the kernel's lane sum and the reference's row reduction are the same finite sum (the reference's starts from the
    zero word, which is `0`);
  * the kernel's division and the reference's are the same total function, so a row of `v` that is zero gives both
    programs the same quotient and nothing is asked of `v`;
  * the factor `2` is the same f32 word in both programs;
  * `v · (2 · q) = (2 · v) · q` by commutativity and associativity of the product, which hold at every extended
    real; the precondition (finite inputs) is therefore never opened.

  The modules: `Reflection` states the reflection as one function of the two arrays and the law above;
  `ReferenceReflects` reads the reference's result stage index by index and finds that function; `BlockValue` reads
  what one grid point leaves in its output block; `KernelReflects` places the 32 blocks in the result array and
  shows they cover it. Below, the three frames are the generated runs, the idealization changed no operation, and the
  two runs end at the same function of arguments that agree.
-/
import proofs.«136204_j44659069944366_2_alg».proof.Defs
import proofs.«136204_j44659069944366_2_alg».proof.Proof.Gen.Kernel
import proofs.«136204_j44659069944366_2_alg».proof.Proof.Gen.Kernel.Skeleton
import proofs.«136204_j44659069944366_2_alg».proof.Proof.Gen.Kernel.Launch
import proofs.«136204_j44659069944366_2_alg».proof.Proof.Gen.Kernel.Points
import proofs.«136204_j44659069944366_2_alg».proof.Proof.Gen.Kernel.Frame
import proofs.«136204_j44659069944366_2_alg».proof.Proof.Gen.KernelIdeal
import proofs.«136204_j44659069944366_2_alg».proof.Proof.Gen.KernelIdeal.Skeleton
import proofs.«136204_j44659069944366_2_alg».proof.Proof.Gen.KernelIdeal.Launch
import proofs.«136204_j44659069944366_2_alg».proof.Proof.Gen.KernelIdeal.Points
import proofs.«136204_j44659069944366_2_alg».proof.Proof.Gen.KernelIdeal.Frame
import proofs.«136204_j44659069944366_2_alg».proof.Proof.Gen.ReferenceIdeal
import proofs.«136204_j44659069944366_2_alg».proof.Proof.Gen.Pre_finite_inputs
import proofs.«136204_j44659069944366_2_alg».proof.Proof.Gen.KernelIdeal.Value
import proofs.«136204_j44659069944366_2_alg».proof.Proof.Gen.ReferenceIdeal.Run
import proofs.«136204_j44659069944366_2_alg».proof.Proof.Gen.ReferenceIdeal.Read
import proofs.«136204_j44659069944366_2_alg».proof.Proof.ReferenceReflects
import proofs.«136204_j44659069944366_2_alg».proof.Proof.KernelReflects
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on `v` and `z`, the kernel's result array and the reference's both end at the reflection
    of the rows of `z` along the rows of `v`. -/
theorem algebraic : Cert.algebraic_KernelIdeal_ReferenceIdeal := by
  intro m ρ m' ρ' _ hagree
  refine ⟨_, Cert.KernelIdeal.Reflects.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v11_eq _ _).trans (Cert.ReferenceIdeal.Reflects.stage_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
